-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x108 : Shape := ⟨3, ![4096, 64, 108]⟩
abbrev S108x128 : Shape := ⟨2, ![108, 128]⟩
abbrev S128 : Shape := ⟨1, ![128]⟩
abbrev S64x128 : Shape := ⟨2, ![64, 128]⟩
abbrev S_ : Shape := ⟨0, ![]⟩

class Facts : Prop where
  bcast_S_S4096x64x108 : S_.BroadcastsInDim S4096x64x108 (![] : Fin 0 → Fin S4096x64x108.rank)
  reducesTo_S4096x64x108_S_d0_1_2 : S4096x64x108.ReducesTo [0, 1, 2] S_
  h_S_ : 0 < S_.numel
  bcast_S_S108x128 : S_.BroadcastsInDim S108x128 (![] : Fin 0 → Fin S108x128.rank)
  reducesTo_S108x128_S_d0_1 : S108x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S4096x64x108 .f32) (main_arg1 : FVec F S108x128 .f32) (main_arg2 : FVec F S128 .f32) (main_arg3 : FVec F S64x128 .f32) : IVec S_ 1 :=
  let main_v0 : FVec F S4096x64x108 .f32 := Host.absf main_arg0
  let main_cst : FVec F S_ .f32 := constant S_ .f32 0x7F800000#32
  let main_v1 : FVec F S4096x64x108 .f32 := broadcastInDim S4096x64x108 ![] bcast_S_S4096x64x108 main_cst
  let main_v2 : IVec S4096x64x108 1 := cmpf .olt main_v0 main_v1
  let main_c : IVec S_ 1 := constantI S_ 1 1#1
  let main_v3 : IVec S_ 1 := (fun x v => Host.reduce IntOp.andi x v reducesTo_S4096x64x108_S_d0_1_2 h_S_) main_v2 main_c
  let main_v4 : FVec F S108x128 .f32 := Host.absf main_arg1
  let main_cst_0 : FVec F S_ .f32 := constant S_ .f32 0x7F800000#32
  let main_v5 : FVec F S108x128 .f32 := broadcastInDim S108x128 ![] bcast_S_S108x128 main_cst_0
  let main_v6 : IVec S108x128 1 := cmpf .olt main_v4 main_v5
  let main_c_1 : IVec S_ 1 := constantI S_ 1 1#1
  let main_v7 : IVec S_ 1 := (fun x v => Host.reduce IntOp.andi x v reducesTo_S108x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S4096x64x108 : Shape := ⟨3, ![4096, 64, 108]⟩
abbrev S108x128 : Shape := ⟨2, ![108, 128]⟩
abbrev S128 : Shape := ⟨1, ![128]⟩
abbrev S64x128 : Shape := ⟨2, ![64, 128]⟩
abbrev S262144x108 : Shape := ⟨2, ![262144, 108]⟩
abbrev S1x128 : Shape := ⟨2, ![1, 128]⟩
abbrev S262144x128 : Shape := ⟨2, ![262144, 128]⟩
abbrev S4096x64x128 : Shape := ⟨3, ![4096, 64, 128]⟩
abbrev S16384x108 : Shape := ⟨2, ![16384, 108]⟩
abbrev S16384x128 : Shape := ⟨2, ![16384, 128]⟩
abbrev S256x64x128 : Shape := ⟨3, ![256, 64, 128]⟩
abbrev S1x64x128 : Shape := ⟨3, ![1, 64, 128]⟩

abbrev nBuf : Space → Nat
  | .hbm => 10
  | .vmem => 6
  | .smem => 0
  | _ => 0

abbrev bufTy : (tb : Table) → Fin (tcTables nBuf tb) → BufTy
  | .hbm, ⟨0, _⟩ => ⟨S4096x64x108, .f32⟩
  | .hbm, ⟨1, _⟩ => ⟨S108x128, .f32⟩
  | .hbm, ⟨2, _⟩ => ⟨S128, .f32⟩
  | .hbm, ⟨3, _⟩ => ⟨S64x128, .f32⟩
  | .hbm, ⟨4, _⟩ => ⟨S262144x108, .f32⟩
  | .hbm, ⟨5, _⟩ => ⟨S1x128, .f32⟩
  | .hbm, ⟨6, _⟩ => ⟨S64x128, .f32⟩
  | .hbm, ⟨7, _⟩ => ⟨S64x128, .f32⟩
  | .hbm, ⟨8, _⟩ => ⟨S262144x128, .f32⟩
  | .hbm, ⟨9, _⟩ => ⟨S4096x64x128, .f32⟩
  | .local _ .vmem, ⟨0, _⟩ => ⟨S16384x108, .f32⟩
  | .local _ .vmem, ⟨1, _⟩ => ⟨S16384x108, .f32⟩
  | .local _ .vmem, ⟨2, _⟩ => ⟨S108x128, .f32⟩
  | .local _ .vmem, ⟨3, _⟩ => ⟨S64x128, .f32⟩
  | .local _ .vmem, ⟨4, _⟩ => ⟨S16384x128, .f32⟩
  | .local _ .vmem, ⟨5, _⟩ => ⟨S16384x128, .f32⟩
  | _, _ => ⟨S4096x64x108, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x108 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S108x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x64x108_S262144x108 : S4096x64x108.ShapeCasts S262144x108
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S262144x128_S4096x64x128 : S262144x128.ShapeCasts S4096x64x128
  inb_S16384x108_S16384x108_0_0 : ∀ a, (![0, 0] : Fin 2 → Nat) a + S16384x108.size a ≤ S16384x108.size a
  h_S16384x108 : 0 < S16384x108.numel
  shapeCasts_S16384x108_S16384x108 : S16384x108.ShapeCasts S16384x108
  inb_S108x128_S108x128_0_0 : ∀ a, (![0, 0] : Fin 2 → Nat) a + S108x128.size a ≤ S108x128.size a
  h_S108x128 : 0 < S108x128.numel
  shapeCasts_S16384x128_S256x64x128 : S16384x128.ShapeCasts S256x64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S1x64x128 : S64x128.ShapeCasts S1x64x128
  broadcasts_S1x64x128_S256x64x128 : S1x64x128.Broadcasts S256x64x128
  shapeCasts_S256x64x128_S16384x128 : S256x64x128.ShapeCasts S16384x128
  inb_S16384x128_S16384x128_0_0 : ∀ a, (![0, 0] : Fin 2 → Nat) a + S16384x128.size a ≤ S16384x128.size a
  h_S16384x128 : 0 < S16384x128.numel
  dot_S16384x108_S108x128_S16384x128_1_0_0_1_n_n_wf : DotDims.WF S16384x108 S108x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x108.size a ≤ S262144x108.size a
  hwx0_0 : ∀ i : grid0.Coords, EltTy.bits .f32 = 32 ∨ (Rect.block (s := S262144x108) S16384x108.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S108x128.size a ≤ S108x128.size a
  hwx0_1 : ∀ i : grid0.Coords, EltTy.bits .f32 = 32 ∨ (Rect.block (s := S108x128) S108x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S262144x128.size a
  hwx0_3 : ∀ i : grid0.Coords, EltTy.bits .f32 = 32 ∨ (Rect.block (s := S262144x128) S16384x128.size (cc0_transform_3 i) (hinb0_3 i)).WholeWords (EltTy.packing .f32)

variable [Facts₀]

def dot_S16384x108_S108x128_S16384x128_1_0_0_1_n_n : DotDims S16384x108 S108x128 S16384x128 where
  lhsContracting := [1]
  rhsContracting := [0]
  lhsNonContracting := [0]
  rhsNonContracting := [1]
  lhsBatch := []
  rhsBatch := []
  wf := dot_S16384x108_S108x128_S16384x128_1_0_0_1_n_n_wf

abbrev win0_0 : Pipeline.Window sig grid0 :=
  Pipeline.Window.ofSpec (Memref.whole main_call0_v0) S16384x108.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S108x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64x108 : Shape := ⟨3, ![4096, 64, 108]⟩
abbrev S108x128 : Shape := ⟨2, ![108, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S4096x64 : Shape := ⟨2, ![4096, 64]⟩
abbrev S_ : Shape := ⟨0, ![]⟩
abbrev S4096x64x1 : Shape := ⟨3, ![4096, 64, 1]⟩
abbrev S1 : Shape := ⟨1, ![1]⟩
abbrev S1x1x1 : Shape := ⟨3, ![1, 1, 1]⟩
abbrev S4096x64x128 : Shape := ⟨3, ![4096, 64, 128]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x64x108, .f32⟩
  | .hbm, ⟨1, _⟩ => ⟨S108x128, .f32⟩
  | .hbm, ⟨2, _⟩ => ⟨S128, .f32⟩
  | .hbm, ⟨3, _⟩ => ⟨S64x128, .f32⟩
  | .hbm, ⟨4, _⟩ => ⟨S64, .i32⟩
  | .hbm, ⟨5, _⟩ => ⟨S1x64, .i32⟩
  | .hbm, ⟨6, _⟩ => ⟨S4096x64, .i32⟩
  | .hbm, ⟨7, _⟩ => ⟨S_, .i32⟩
  | .hbm, ⟨8, _⟩ => ⟨S4096x64, .i32⟩
  | .hbm, ⟨9, _⟩ => ⟨S4096x64, .i1⟩
  | .hbm, ⟨10, _⟩ => ⟨S_, .i32⟩
  | .hbm, ⟨11, _⟩ => ⟨S4096x64, .i32⟩
  | .hbm, ⟨12, _⟩ => ⟨S4096x64, .i32⟩
  | .hbm, ⟨13, _⟩ => ⟨S4096x64, .i32⟩
  | .hbm, ⟨14, _⟩ => ⟨S4096x64x1, .i32⟩
  | .hbm, ⟨15, _⟩ => ⟨S1, .i32⟩
  | .hbm, ⟨16, _⟩ => ⟨S_, .i32⟩
  | .hbm, ⟨17, _⟩ => ⟨S4096x64x1, .i32⟩
  | .hbm, ⟨18, _⟩ => ⟨S4096x64x1, .i1⟩
  | .hbm, ⟨19, _⟩ => ⟨S1x1x1, .i32⟩
  | .hbm, ⟨20, _⟩ => ⟨S4096x64x1, .i32⟩
  | .hbm, ⟨21, _⟩ => ⟨S4096x64x1, .i1⟩
  | .hbm, ⟨22, _⟩ => ⟨S4096x64x1, .i1⟩
  | .hbm, ⟨23, _⟩ => ⟨S_, .i1⟩
  | .hbm, ⟨24, _⟩ => ⟨S4096x64, .i1⟩
  | .hbm, ⟨25, _⟩ => ⟨S4096x64x128, .f32⟩
  | .hbm, ⟨26, _⟩ => ⟨S4096x64x128, .i1⟩
  | .hbm, ⟨27, _⟩ => ⟨S_, .f32⟩
  | .hbm, ⟨28, _⟩ => ⟨S4096x64x128, .f32⟩
  | .hbm, ⟨29, _⟩ => ⟨S4096x64x128, .f32⟩
  | .hbm, ⟨30, _⟩ => ⟨S4096x64x128, .f32⟩
  | .hbm, ⟨31, _⟩ => ⟨S1x1x128, .f32⟩
  | .hbm, ⟨32, _⟩ => ⟨S4096x64x128, .f32⟩
  | .hbm, ⟨33, _⟩ => ⟨S4096x64x128, .f32⟩
  | .hbm, ⟨34, _⟩ => ⟨S4096x64x128, .f32⟩
  | _, _ => ⟨S4096x64x108, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  h_S_ : 0 < S_.numel
  bcast_S4096x64_S4096x64x128_0_1 : S4096x64.BroadcastsInDim S4096x64x128 (![0, 1] : Fin 2 → Fin S4096x64x128.rank)
  bcast_S_S4096x64x128 : S_.BroadcastsInDim S4096x64x128 (![] : Fin 0 → Fin S4096x64x128.rank)
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  gather_S64x128_S4096x64x1_S4096x64x128_2_0_n_n_0_2_1128_wf : GatherDims.WF S64x128 S4096x64x1 S4096x64x128 [2] [0] [] [0] [] 2 ![1, 128]
  dot_S4096x64x108_S108x128_S4096x64x128_2_0_01_1_n_n_wf : DotDims.WF S4096x64x108 S108x128 S4096x64x128 [2] [0] [0, 1] [1] [] []

variable [Facts₀]

def gather_S64x128_S4096x64x1_S4096x64x128_2_0_n_n_0_2_1128 : GatherDims S64x128 S4096x64x1 S4096x64x128 where
  offsetDims := [2]
  collapsedSliceDims := [0]
  operandBatchingDims := []
  startIndicesBatchingDims := []
  startIndexMap := [0]
  indexVectorDim := 2
  sliceSizes := ![1, 128]
  wf := gather_S64x128_S4096x64x1_S4096x64x128_2_0_n_n_0_2_1128_wf
def dot_S4096x64x108_S108x128_S4096x64x128_2_0_01_1_n_n : DotDims S4096x64x108 S108x128 S4096x64x128 where
  lhsContracting := [2]
  rhsContracting := [0]
  lhsNonContracting := [0, 1]
  rhsNonContracting := [1]
  lhsBatch := []
  rhsBatch := []
  wf := dot_S4096x64x108_S108x128_S4096x64x128_2_0_01_1_n_n_wf

class Facts : Prop extends Facts₀ where

variable [Facts]
-- ==== Proof.Spec.lean ====
/-
  The patch embedding as ONE function of the four argument arrays, over the extended reals:

      out[b, p, d] = (Σ_k patches[b, p, k] · W[k, d]) + (pos[p, d] + bias[d])

  a patch's 108 pixels projected onto 128 features, plus that feature's bias and the patch position's
  learned row.  Both programs are compared against this one term: the kernel adds the precomputed table
  `pos + bias` to the projection, the reference adds the bias first and the positional row second; on the
  extended reals addition is commutative and associative without any finiteness, so the two groupings agree.
-/
import Idealize.ShloMosaic.PureOps.Ideal
import Idealize.ShloMosaic.Lib.ValueIdx

noncomputable section

open scoped BigOperators

namespace Cert.Embed

open Idealize.ShloMosaic Idealize.ShloMosaic.ValueIdx

/-- One output element from the coordinates: batch entry `bi`, patch position `p`, feature `d`. -/
def outAt (x : FVec Ideal ⟨3, ![4096, 64, 108]⟩ .f32) (w : FVec Ideal ⟨2, ![108, 128]⟩ .f32)
    (b : FVec Ideal ⟨1, ![128]⟩ .f32) (t : FVec Ideal ⟨2, ![64, 128]⟩ .f32)
    (bi : Fin 4096) (p : Fin 64) (d : Fin 128) : EReal :=
  (∑ k : Fin 108, x (ix3 bi p k) * w (ix2 k d)) + (t (ix2 p d) + b (ix1 d))

/-- The whole output array. -/
def out (x : FVec Ideal ⟨3, ![4096, 64, 108]⟩ .f32) (w : FVec Ideal ⟨2, ![108, 128]⟩ .f32)
    (b : FVec Ideal ⟨1, ![128]⟩ .f32) (t : FVec Ideal ⟨2, ![64, 128]⟩ .f32) :
    FVec Ideal ⟨3, ![4096, 64, 128]⟩ .f32 :=
  fun i => outAt x w b t (i 0) (i 1) (i 2)

/-- The array at an index given by its coordinates. -/
theorem out_ix3 (x : FVec Ideal ⟨3, ![4096, 64, 108]⟩ .f32) (w : FVec Ideal ⟨2, ![108, 128]⟩ .f32)
    (b : FVec Ideal ⟨1, ![128]⟩ .f32) (t : FVec Ideal ⟨2, ![64, 128]⟩ .f32)
    (bi : Fin 4096) (p : Fin 64) (d : Fin 128) :
    out x w b t (ix3 bi p d) = outAt x w b t bi p d := rfl

/-- The reference's grouping of the three summands is the kernel's: `(s + b) + t = s + (t + b)`. -/
theorem regroup (s b t : EReal) : (s + b) + t = s + (t + b) := by
  rw [add_assoc, add_comm b t]

end Cert.Embed

end
-- ==== Proof.KernelArgs.lean ====
/-
  The kernel program's four argument arrays on a core, and the two arrays its host lines prepare for the launch,
  each named at its tensor type: patches [4096, 64, 108], weights [108, 128], bias [128], positional table [64, 128];
  the patches flattened to rows [262144, 108] and the positional table with the bias added to every row [64, 128].
-/
import proofs.«100341_g53068615909980_cont_9to1c4b_296_15_alg».proof.Proof.Gen.KernelIdeal.Frame
import Idealize.ShloMosaic.PureOps.Ideal

noncomputable section

namespace Cert.KernelIdeal.PatchValue

open Cert.KernelIdeal Cert.KernelIdeal.Gen Idealize.ShloMosaic Idealize.ShloMosaic.TcCoe Idealize.SL.Sem

variable (m : (ℓ : Loc nD τ sig) → Buf (Elt Ideal) ℓ)

/-- The patches as launched. -/
abbrev patches (c : Dev nD) : FVec Ideal S4096x64x108 .f32 := m ((c : Thread nD τ).loc main_arg0)
/-- The projection weights as launched. -/
abbrev weights (c : Dev nD) : FVec Ideal S108x128 .f32 := m ((c : Thread nD τ).loc main_arg1)
/-- The bias as launched. -/
abbrev bias (c : Dev nD) : FVec Ideal S128 .f32 := m ((c : Thread nD τ).loc main_arg2)
/-- The positional table as launched. -/
abbrev posTable (c : Dev nD) : FVec Ideal S64x128 .f32 := m ((c : Thread nD τ).loc main_arg3)
/-- The flattened patches the launch finds. -/
abbrev flatPatches (c : Dev nD) : FVec Ideal S262144x108 .f32 := V m c main_call0_v0
/-- The weights the launch finds. -/
abbrev foundWeights (c : Dev nD) : FVec Ideal S108x128 .f32 := V m c main_arg1
/-- The positional table plus bias the launch finds. -/
abbrev fusedTable (c : Dev nD) : FVec Ideal S64x128 .f32 := V m c main_call0_v3

end Cert.KernelIdeal.PatchValue

end
-- ==== Proof.KernelPayload.lean ====
/-
  The value the kernel body stores, at one index, over the extended reals.

  The body multiplies its block of 16384 patch rows (108 pixels each) by the 108 × 128 weight matrix into a
  zero accumulator, views the 16384 × 128 product as 256 × 64 × 128 (row `r` is the pair `(r / 64, r % 64)`:
  64 patch positions per image), adds the 64 × 128 table laid along the leading axis, and views the sum as
  16384 × 128 again.  So at row `r` and feature `d` it stores the projection of row `r` onto feature `d`
  plus the table's entry at `(r % 64, d)`.  Each layout operation is read at one index, outermost first.
-/
import proofs.«100341_g53068615909980_cont_9to1c4b_296_15_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PatchValue

open Cert.KernelIdeal Cert.KernelIdeal.Gen Idealize.ShloMosaic Idealize.ShloMosaic.ValueIdx

/-- The matrix product into the zero accumulator, at row `r` and feature `d`: the sum over the 108 pixels of
    the row's entries times the weight column's.  The contraction has one axis (axis 1 of the left operand,
    axis 0 of the right), so its index set is `Fin 108`; the left operand is read at `(r, k)`, the right at `(k, d)`. -/
theorem proj_apply (x0 : FVec Ideal S16384x108 .f32) (x1 : FVec Ideal S108x128 .f32) (r : Fin 16384) (d : Fin 128) :
    matmul dot_S16384x108_S108x128_S16384x128_1_0_0_1_n_n none x0 x1
        (constant (F := Ideal) S16384x128 .f32 0x00000000#32) (ix2 r d)
      = ∑ k : Fin 108, x0 (ix2 r k) * x1 (ix2 k d) := by
  show FloatOps.matmul dot_S16384x108_S108x128_S16384x128_1_0_0_1_n_n none x0 x1
      (constant (F := Ideal) S16384x128 .f32 0x00000000#32) (ix2 r d) = _
  rw [Ideal.matmul_constant_zero_apply,
    ← Equiv.sum_comp (contrEquiv1 dot_S16384x108_S108x128_S16384x128_1_0_0_1_n_n 108 rfl rfl).symm]
  refine Finset.sum_congr rfl fun c _ => ?_
  have c1 := contrEquiv1_symm_val dot_S16384x108_S108x128_S16384x128_1_0_0_1_n_n 108 rfl rfl c
  have l2 : dot_S16384x108_S108x128_S16384x128_1_0_0_1_n_n.lhsIdx (ix2 r d)
      ((contrEquiv1 _ 108 rfl rfl).symm c) = ix2 r c := by
    funext ax; apply Fin.ext
    match ax with
    | ⟨0, _⟩ => simp [DotDims.lhsIdx, dot_S16384x108_S108x128_S16384x128_1_0_0_1_n_n]; rfl
    | ⟨1, _⟩ => simp [DotDims.lhsIdx, dot_S16384x108_S108x128_S16384x128_1_0_0_1_n_n]; exact c1
  have r2 : dot_S16384x108_S108x128_S16384x128_1_0_0_1_n_n.rhsIdx (ix2 r d)
      ((contrEquiv1 _ 108 rfl rfl).symm c) = ix2 c d := by
    funext ax; apply Fin.ext
    match ax with
    | ⟨0, _⟩ => simp [DotDims.rhsIdx, dot_S16384x108_S108x128_S16384x128_1_0_0_1_n_n]; exact c1
    | ⟨1, _⟩ => simp [DotDims.rhsIdx, dot_S16384x108_S108x128_S16384x128_1_0_0_1_n_n]; rfl
  rw [l2, r2]

/-- The 256 × 64 × 128 view read as 16384 × 128: row `r` is image `r / 64`, position `r % 64`. -/
theorem flatten_apply {α : Type} (v : S256x64x128.Idx → α) (r : Fin 16384) (d : Fin 128) :
    shapeCast S16384x128 v shapeCasts_S256x64x128_S16384x128 (ix2 r d)
      = v (ix3 (⟨r.val / 64, by have := r.isLt; omega⟩ : Fin 256) (⟨r.val % 64, Nat.mod_lt _ (by norm_num)⟩ : Fin 64) d) :=
  shapeCast_apply v _ _ _ (by
    rw [Shape.rowMajor_val_three, Shape.rowMajor_val_two]
    show (r.val / 64 * 64 + r.val % 64) * 128 + d.val = r.val * 128 + d.val
    omega)

/-- The 16384 × 128 product viewed as 256 × 64 × 128: entry `(a, q, d)` is row `64·a + q`. -/
theorem unflatten_apply {α : Type} (v : S16384x128.Idx → α) (a : Fin 256) (q : Fin 64) (d : Fin 128) :
    shapeCast S256x64x128 v shapeCasts_S16384x128_S256x64x128 (ix3 a q d)
      = v (ix2 (⟨a.val * 64 + q.val, by have := a.isLt; have := q.isLt; omega⟩ : Fin 16384) d) :=
  shapeCast_apply v _ _ _ (by
    rw [Shape.rowMajor_val_two, Shape.rowMajor_val_three]
    show (a.val * 64 + q.val) * 128 + d.val = (a.val * 64 + q.val) * 128 + d.val
    rfl)

/-- The table given a leading unit axis and laid along the 256 images: entry `(a, q, d)` is the table's `(q, d)`. -/
theorem table_apply {α : Type} (t : S64x128.Idx → α) (a : Fin 256) (q : Fin 64) (d : Fin 128) :
    broadcastTo S256x64x128 (shapeCast S1x64x128 t shapeCasts_S64x128_S1x64x128) broadcasts_S1x64x128_S256x64x128 (ix3 a q d)
      = t (ix2 q d) := by
  refine (broadcastTo_apply _ _ (ix3 a q d) (ix3 (0 : Fin 1) q d) (fun ax => ?_)).trans ?_
  · match ax with
    | ⟨0, _⟩ => rfl
    | ⟨1, _⟩ => rfl
    | ⟨2, _⟩ => rfl
  · exact shapeCast_ab_1ab_apply t _ 0 q d

/-- The stored value at row `r`, feature `d`: the projection of row `r` plus the table's row `r % 64`. -/
theorem pay_apply (x0 : Vec Ideal S16384x108 .f32) (x1 : Vec Ideal S108x128 .f32) (x2 : Vec Ideal S64x128 .f32)
    (r : Fin 16384) (d : Fin 128) :
    Gen.k0_pay1 (F := Ideal) x0 x1 x2 (ix2 r d)
      = (∑ k : Fin 108, x0 (ix2 r k) * x1 (ix2 k d)) + x2 (ix2 (⟨r.val % 64, Nat.mod_lt _ (by norm_num)⟩ : Fin 64) d) := by
  unfold Gen.k0_pay1
  refine (flatten_apply _ r d).trans ?_
  rw [addf_apply, unflatten_apply, table_apply, shapeCast_self, shapeCast_self]
  have hr : (⟨r.val / 64 * 64 + r.val % 64, by have := r.isLt; omega⟩ : Fin 16384) = r := Fin.ext (by
    show r.val / 64 * 64 + r.val % 64 = r.val
    omega)
  rw [hr, proj_apply]

end Cert.KernelIdeal.PatchValue

end
-- ==== Proof.KernelArray.lean ====
/-
  The array the kernel's launch writes, as ONE function of the arrays the launch finds.

  The launch streams the flattened patches X : [262144, 108] in 16 blocks of 16384 rows; the weights
  Wt : [108, 128] and the fused table Tb : [64, 128] are whole-array blocks at every grid point.  Grid point t
  writes rows 16384·t … 16384·t + 16383 of the result.  Row R of the result is

      Σ_k X[R, k] · Wt[k, d]  +  Tb[R mod 64, d]

  because a block starts at a multiple of 64 rows, so a row's position inside its block and its position in the
  whole array are congruent modulo 64.  Every row lies in exactly the block ⌊R / 16384⌋, so the blocks cover the
  array and the array after the launch is this function.
-/
import proofs.«100341_g53068615909980_cont_9to1c4b_296_15_alg».proof.Proof.Gen.KernelIdeal.Frame
import proofs.«100341_g53068615909980_cont_9to1c4b_296_15_alg».proof.Proof.KernelArgs
import proofs.«100341_g53068615909980_cont_9to1c4b_296_15_alg».proof.Proof.KernelPayload
import Idealize.ShloMosaic.Lib.Pipeline.Value
import Idealize.ShloMosaic.Lib.ValueIdx

noncomputable section

open scoped BigOperators

namespace Cert.KernelIdeal.PatchValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Row `R`, feature `d` of the launch's result from the flattened patches, the weights and the fused table. -/
def rowsOf (X : FVec Ideal S262144x108 .f32) (Wt : FVec Ideal S108x128 .f32) (Tb : FVec Ideal S64x128 .f32) :
    FVec Ideal S262144x128 .f32 :=
  fun j => (∑ k : Fin 108, X (ix2 (j 0) k) * Wt (ix2 k (j 1)))
    + Tb (ix2 (⟨(j 0).val % 64, Nat.mod_lt _ (by norm_num)⟩ : Fin 64) (j 1))

/-- The printed index maps over the grid: the patches' and the result's block index is the grid point on the row
    axis, the weights' and the table's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The patches' block at point `t` is rows `16384·t …` of the flattened patches. -/
theorem iblk0_apply (c : Dev nD) (t : Fin cfg0.N) (x : S16384x108.Idx) (k : S262144x108.Idx)
    (hk0 : (k 0).val = 16384 * t.val + (x 0).val) (hk1 : (k 1).val = (x 1).val) :
    (iblk m c 0 t : Vec Ideal S16384x108 .f32) x = flatPatches m c k := by
  obtain ⟨e0, e1, -⟩ := idx_facts t
  unfold iblk
  rw [View.read_apply]
  refine congrArg (flatPatches m c) ?_
  funext a
  apply Fin.ext
  match a with
  | ⟨0, _⟩ => show win0_0.index t (0 : Fin 2) * 16384 + 1 * (x 0).val = (k 0).val; rw [e0, hk0]; omega
  | ⟨1, _⟩ => show win0_0.index t (1 : Fin 2) * 108 + 1 * (x 1).val = (k 1).val; rw [e1, hk1]; omega

/-- The weights' block at every point is the whole weight array. -/
theorem iblk1_eq (c : Dev nD) (t : Fin cfg0.N) :
    (iblk m c 1 t : Vec Ideal S108x128 .f32) = foundWeights m c := by
  obtain ⟨-, -, e0, e1, -⟩ := idx_facts t
  funext x
  unfold iblk
  rw [View.read_apply]
  refine congrArg (foundWeights m c) ?_
  funext a
  apply Fin.ext
  match a with
  | ⟨0, _⟩ => show win0_1.index t (0 : Fin 2) * 108 + 1 * (x 0).val = (x 0).val; rw [e0]; omega
  | ⟨1, _⟩ => show win0_1.index t (1 : Fin 2) * 128 + 1 * (x 1).val = (x 1).val; rw [e1]; omega

/-- The table's block at every point is the whole table. -/
theorem iblk2_eq (c : Dev nD) (t : Fin cfg0.N) :
    (iblk m c 2 t : Vec Ideal S64x128 .f32) = fusedTable m c := by
  obtain ⟨-, -, -, -, e0, e1, -⟩ := idx_facts t
  funext x
  unfold iblk
  rw [View.read_apply]
  refine congrArg (fusedTable m c) ?_
  funext a
  apply Fin.ext
  match a with
  | ⟨0, _⟩ => show win0_2.index t (0 : Fin 2) * 64 + 1 * (x 0).val = (x 0).val; rw [e0]; omega
  | ⟨1, _⟩ => show win0_2.index t (1 : Fin 2) * 128 + 1 * (x 1).val = (x 1).val; rw [e1]; omega

/-- One element of the body's stored value is the row function at the element's place in the whole array, when the
    patches' block is rows `16384·q …` of `X`: the block offset is a multiple of 64, so the table row agrees. -/
theorem block_apply (x0 : Vec Ideal S16384x108 .f32) (x1 : Vec Ideal S108x128 .f32) (x2 : Vec Ideal S64x128 .f32)
    (X : FVec Ideal S262144x108 .f32) (q : Nat)
    (h0 : ∀ (y : S16384x108.Idx) (k : S262144x108.Idx), (k 0).val = 16384 * q + (y 0).val → (k 1).val = (y 1).val → x0 y = X k)
    (y : S16384x128.Idx) (j : S262144x128.Idx) (hj0 : (j 0).val = 16384 * q + (y 0).val) (hj1 : (j 1).val = (y 1).val) :
    k0_pay1 (F := Ideal) x0 x1 x2 y = rowsOf X x1 x2 j := by
  obtain ⟨r, d, rfl⟩ : ∃ (r : Fin 16384) (d : Fin 128), y = ix2 r d := ⟨y 0, y 1, eq_ix2 y⟩
  obtain ⟨R, d', rfl⟩ : ∃ (R : Fin 262144) (d' : Fin 128), j = ix2 R d' := ⟨j 0, j 1, eq_ix2 j⟩
  have hR : R.val = 16384 * q + r.val := hj0
  have hd : d = d' := (Fin.ext hj1).symm
  subst hd
  rw [pay_apply]
  unfold rowsOf
  have hmod : (⟨r.val % 64, Nat.mod_lt _ (by norm_num)⟩ : Fin 64) = ⟨R.val % 64, Nat.mod_lt _ (by norm_num)⟩ :=
    Fin.ext (by show r.val % 64 = R.val % 64; omega)
  show _ + x2 (ix2 _ d) = _ + x2 (ix2 _ d)
  rw [hmod]
  refine congrArg (· + x2 (ix2 _ d)) (Finset.sum_congr rfl fun k _ => ?_)
  rw [h0 (ix2 r k) (ix2 R k) hR rfl]

/-- WHAT POINT `t` WRITES BACK is block `t` of the row function of the arrays the launch finds. -/
theorem flushed_eq (c : Dev nD) (t : Fin cfg0.N) :
    (dats m 0 c).flushed 3 t = ((cfg0.win 3).blk t).view.read (Elt Ideal)
      (rowsOf (flatPatches m c) (foundWeights m c) (fusedTable m c)) := by
  show (cfg0.win 3).cut (grid0.coords t) ((dats m 0 c).after 3 t) = _
  rw [after0_3]
  unfold out0_3
  rw [View.canon_unit_zero hz]
  simp only [View.ld_unit_zero (S := S16384x108) hz, View.ld_unit_zero (S := S108x128) hz, View.ld_unit_zero (S := S64x128) hz]
  rw [iblk1_eq m c t, iblk2_eq m c t]
  obtain ⟨-, -, -, -, -, -, e0, e1⟩ := idx_facts t
  funext y
  refine block_apply (iblk m c 0 t) (foundWeights m c) (fusedTable m c) (flatPatches m c) t.val
    (fun y k hk0 hk1 => iblk0_apply m c t y k hk0 hk1) y (((cfg0.win 3).blk t).view.emb y) ?_ ?_
  · show win0_3.index t (0 : Fin 2) * 16384 + 1 * (y 0).val = 16384 * t.val + (y 0).val; rw [e0]; omega
  · show win0_3.index t (1 : Fin 2) * 128 + 1 * (y 1).val = (y 1).val; rw [e1]; omega

/-- An index of the result is in point `t`'s block iff each coordinate is in the block's range on its axis. -/
theorem mem_blk (t : Fin cfg0.N) (i : S262144x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_call0_v4).slice (win0_3.rect t)).set ↔ _
  rw [View.set_slice_whole, Rect.mem_set_unit]
  exact Iff.rfl

/-- Row `R` lies in the block of point `R / 16384`. -/
theorem cover (i : S262144x128.Idx) :
    ∃ t : Fin cfg0.N, (cfg0.win 3).flush t = true ∧ i ∈ ((cfg0.win 3).blk t).view.set := by
  have hi0 : (i 0).val < 262144 := idx2_lt0 i
  have hi1 : (i 1).val < 128 := idx2_lt1 i
  have hN : cfg0.N = 16 := N_0
  let t : Fin cfg0.N := ⟨(i 0).val / 16384, by rw [hN]; omega⟩
  have ht : t.val = (i 0).val / 16384 := rfl
  obtain ⟨-, -, -, -, -, -, e0, e1⟩ := idx_facts t
  refine ⟨t, flush0_3 t, ?_⟩
  rw [mem_blk]
  intro a
  match a with
  | ⟨0, _⟩ => show win0_3.index t (0 : Fin 2) * 16384 ≤ (i 0).val ∧ (i 0).val < win0_3.index t (0 : Fin 2) * 16384 + 16384; rw [e0, ht]; omega
  | ⟨1, _⟩ => show win0_3.index t (1 : Fin 2) * 128 ≤ (i 1).val ∧ (i 1).val < win0_3.index t (1 : Fin 2) * 128 + 128; rw [e1]; omega

/-- THE ARRAY after the launch is the row function of the arrays the launch finds. -/
theorem final (c : Dev nD) :
    (dats m 0 c).arrAt 3 cfg0.N = rowsOf (flatPatches m c) (foundWeights m c) (fusedTable m c) :=
  (dats m 0 c).arrAt_eq_of_cover 3 (rowsOf (flatPatches m c) (foundWeights m c) (fusedTable m c))
    (fun t _ => flushed_eq m c t) cover

end Cert.KernelIdeal.PatchValue

end
-- ==== Proof.KernelLayout.lean ====
/-
  The host reshapes and the bias table around the kernel launch, read at one index, over the extended reals.

  Before the launch the [4096, 64, 108] patches are viewed as [262144, 108] rows — row R is patch (R / 64, R % 64),
  both being row-major position R · 108 + k — and the bias vector is broadcast along the 64 positions and added to the
  positional table.  After it the [262144, 128] result is viewed as [4096, 64, 128]: element (bi, p, d) is row
  64 · bi + p.
-/
import proofs.«100341_g53068615909980_cont_9to1c4b_296_15_alg».proof.Proof.Gen.KernelIdeal.Frame
import proofs.«100341_g53068615909980_cont_9to1c4b_296_15_alg».proof.Proof.KernelArgs
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.PatchValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A [262144, n] array viewed as [4096, 64, n]: element (bi, p, d) is at row-major position
    ((bi · 64 + p) · n + d), which is row 64 · bi + p, column d. -/
theorem result_unflatten_apply (A : FVec Ideal S262144x128 .f32) (bi : Fin 4096) (p : Fin 64) (d : Fin 128) :
    shapeCast S4096x64x128 A shapeCasts_S262144x128_S4096x64x128 (ix3 bi p d)
      = A (ix2 (⟨64 * bi.val + p.val, by omega⟩ : Fin 262144) d) := by
  refine shapeCast_apply A shapeCasts_S262144x128_S4096x64x128 (ix3 bi p d) (ix2 (⟨64 * bi.val + p.val, by omega⟩ : Fin 262144) d) ?_
  rw [Shape.rowMajor_val_two, Shape.rowMajor_val_three]
  show (64 * bi.val + p.val) * 128 + d.val = (bi.val * 64 + p.val) * 128 + d.val
  omega

/-- The flattened patches: row R of the [262144, 108] view is patch (R / 64, R % 64). -/
theorem entry_rows (c : Dev nD) (R : Fin 262144) (k : Fin 108) :
    flatPatches m c (ix2 R k)
      = patches m c (ix3 (⟨R.val / 64, by omega⟩ : Fin 4096) (⟨R.val % 64, Nat.mod_lt _ (by norm_num)⟩ : Fin 64) k) := by
  have e : flatPatches m c = shapeCast S262144x108 (patches m c) shapeCasts_S4096x64x108_S262144x108 := by
    show StableHlo.after hostOps0 (fun b => m (c, b)) (Proc.devRef .tc main_call0_v0) = _
    after_results
    rfl
  rw [e]
  refine shapeCast_apply (patches m c) shapeCasts_S4096x64x108_S262144x108 (ix2 R k)
    (ix3 (⟨R.val / 64, by omega⟩ : Fin 4096) (⟨R.val % 64, Nat.mod_lt _ (by norm_num)⟩ : Fin 64) k) ?_
  rw [Shape.rowMajor_val_two, Shape.rowMajor_val_three]
  show (R.val / 64 * 64 + R.val % 64) * 108 + k.val = R.val * 108 + k.val
  omega

/-- A vector broadcast to one row, read at (0, d), is the vector at d. -/
theorem layout_row_of_vec (b : FVec Ideal S128 .f32) (z : Fin 1) (d : Fin 128) :
    broadcastInDim S1x128 ![1] bcast_S128_S1x128_1 b (ix2 z d) = b (ix1 d) := by
  refine broadcastInDim_apply ![1] bcast_S128_S1x128_1 b (ix2 z d) (ix1 d) ?_
  intro a
  fin_cases a
  show d.val = if (128 : ℕ) = 1 then 0 else d.val
  rw [if_neg (by norm_num)]

/-- One row broadcast down the 64 positions, read at (p, d), is the row at (0, d). -/
theorem layout_rows_of_row (y : FVec Ideal S1x128 .f32) (p : Fin 64) (d : Fin 128) :
    broadcastInDim S64x128 ![0, 1] bcast_S1x128_S64x128_0_1 y (ix2 p d) = y (ix2 (0 : Fin 1) d) := by
  refine broadcastInDim_apply ![0, 1] bcast_S1x128_S64x128_0_1 y (ix2 p d) (ix2 (0 : Fin 1) d) ?_
  intro a
  fin_cases a
  · show (0 : ℕ) = if (1 : ℕ) = 1 then 0 else p.val
    rw [if_pos rfl]
  · show d.val = if (128 : ℕ) = 1 then 0 else d.val
    rw [if_neg (by norm_num)]

/-- The fused table: positional row plus bias. -/
theorem entry_table (c : Dev nD) (p : Fin 64) (d : Fin 128) :
    fusedTable m c (ix2 p d) = posTable m c (ix2 p d) + bias m c (ix1 d) := by
  have e : fusedTable m c
      = addf (posTable m c)
          (broadcastInDim S64x128 ![0, 1] bcast_S1x128_S64x128_0_1
            (broadcastInDim S1x128 ![1] bcast_S128_S1x128_1 (bias m c))) := by
    show StableHlo.after hostOps0 (fun b => m (c, b)) (Proc.devRef .tc main_call0_v3) = _
    after_results
    rfl
  rw [e, addf_apply, layout_rows_of_row, layout_row_of_vec]

/-- The operation list after the launch, from any contents W: the result buffer holds the [262144, 128] array
    viewed as [4096, 64, 128]. -/
theorem tail_apply (W : Valuation τ sig (Elt Ideal)) (bi : Fin 4096) (p : Fin 64) (d : Fin 128) :
    (StableHlo.after (hostOps1 (F := Ideal)) W (Proc.devRef .tc main_v0) : FVec Ideal S4096x64x128 .f32) (ix3 bi p d)
      = (W (Proc.devRef .tc main_call0_v4) : FVec Ideal S262144x128 .f32)
          (ix2 (⟨64 * bi.val + p.val, by omega⟩ : Fin 262144) d) := by
  have e : (StableHlo.after (hostOps1 (F := Ideal)) W (Proc.devRef .tc main_v0) : FVec Ideal S4096x64x128 .f32)
      = shapeCast S4096x64x128 (W (Proc.devRef .tc main_call0_v4) : FVec Ideal S262144x128 .f32) shapeCasts_S262144x128_S4096x64x128 := by
    after_results
    rfl
  rw [e]
  exact result_unflatten_apply _ bi p d

end Cert.KernelIdeal.PatchValue

end
-- ==== Proof.KernelRun.lean ====
/-
  The kernel program's run, read: @main's result is the embedding of the four arguments.

  The launch's result array (rows of the flattened patches) is reshaped back to [4096, 64, 128] by the one host
  line after the launch: element (bi, p, d) is row 64·bi + p.  That row of the flattened patches is patch
  (bi, p) — 64·bi + p divided by 64 is bi with remainder p — and its row of the fused table is p, which is the
  positional row p plus the bias.
-/
import proofs.«100341_g53068615909980_cont_9to1c4b_296_15_alg».proof.Proof.Spec
import proofs.«100341_g53068615909980_cont_9to1c4b_296_15_alg».proof.Proof.KernelArray
import proofs.«100341_g53068615909980_cont_9to1c4b_296_15_alg».proof.Proof.KernelLayout
import Idealize.ShloMosaic.Lib.StableHlo.Run

noncomputable section

open scoped BigOperators

namespace Cert.KernelIdeal.PatchValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The row function of the arrays the launch finds, at row `R = 64·bi + p`, is the embedding's element
    `(bi, p, d)`: the flattened row is patch `(bi, p)`, and its table row is `p`. -/
theorem rows_apply (c : Dev nD) (bi : Fin 4096) (p : Fin 64) (d : Fin 128) (R : Fin 262144) (hR : R.val = 64 * bi.val + p.val) :
    rowsOf (flatPatches m c) (foundWeights m c) (fusedTable m c) (ix2 R d)
      = Cert.Embed.outAt (patches m c) (weights m c) (bias m c) (posTable m c) bi p d := by
  have hdiv : (⟨R.val / 64, by omega⟩ : Fin 4096) = bi := Fin.ext (by show R.val / 64 = bi.val; omega)
  have hmod : (⟨R.val % 64, Nat.mod_lt _ (by norm_num)⟩ : Fin 64) = p := Fin.ext (by show R.val % 64 = p.val; omega)
  show (∑ k : Fin 108, flatPatches m c (ix2 R k) * foundWeights m c (ix2 k d))
      + fusedTable m c (ix2 (⟨R.val % 64, Nat.mod_lt _ (by norm_num)⟩ : Fin 64) d) = _
  rw [hmod]
  unfold Cert.Embed.outAt
  refine congrArg₂ (· + ·) (Finset.sum_congr rfl fun k _ => ?_) (entry_table m c p d)
  refine congrArg₂ (· * ·) ((entry_rows m c R k).trans ?_) (congrFun (V_main_arg1 m c) _)
  rw [hdiv, hmod]

/-- What @main's result buffer holds after the reshape that follows the launch: the embedding of the arguments. -/
theorem tail_eq (c : Dev nD) :
    Pipeline.afterTail₀ cfgs (dats m) 0 (V0 m) [hostOps1] c main_v0
      = Cert.Embed.out (patches m c) (weights m c) (bias m c) (posTable m c) := by
  funext i
  obtain ⟨bi, p, d, rfl⟩ : ∃ (bi : Fin 4096) (p : Fin 64) (d : Fin 128), i = ix3 bi p d := ⟨i 0, i 1, i 2, eq_ix3 i⟩
  rw [Cert.Embed.out_ix3]
  refine Eq.trans ?_ (rows_apply m c bi p d (⟨64 * bi.val + p.val, by omega⟩ : Fin 262144) rfl)
  rw [← final m c]
  unfold Pipeline.afterTail₀
  refine (tail_apply _ bi p d).trans ?_
  exact congrFun (Pipeline.withArrays_arr spec0 launch0.win.arr_inj c (V0 m c) (fun w => (dats m 0 c).arrAt w cfg0.N) 3) _

/-- The kernel program's run, read: the result buffer ends at the embedding of the arguments, which end unchanged. -/
theorem run : θ_run defs (onTc (τ := τ) (main (F := Ideal))) ⟨m, fun _ => 0, ρ⟩ fun r => ∀ c : Dev nD,
      r.2.mem ((c.tc : Thread nD τ).loc main_v0)
        = Cert.Embed.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PatchValue

end
-- ==== Proof.RefTerm.lean ====
/-
  The reference as ONE pure term of its four argument arrays, stage by stage.

  `jnp.take(pos_table, positions, axis=0)` with `positions[b, p] = p` lowers to: the position grid (an
  iota over the 64 patch positions, broadcast over the batch), negative indices wrapped by 64, the wrapped
  index as a one-column start-index array, the in-bounds mask `0 ≤ index ≤ 63` reduced over that column, a
  row gather from the table, and a select that keeps the gathered row where the mask holds and a NaN filler
  elsewhere.  Around it: the projection `patches · W` contracted over the 108 pixels, plus the bias
  broadcast over batch and position, plus the taken rows.
-/
import proofs.«100341_g53068615909980_cont_9to1c4b_296_15_alg».proof.Proof.Gen.ReferenceIdeal

noncomputable section

namespace Cert.ReferenceIdeal.RefTerm

open Cert.ReferenceIdeal Cert.ReferenceIdeal.Gen Idealize.ShloMosaic

variable {F : FTy → Type} [FloatOps F]

/-- `positions[b, p] = p`: the iota over patch positions, broadcast over the batch. -/
def positions : IVec S4096x64 32 :=
  broadcastInDim S4096x64 ![0, 1] bcast_S1x64_S4096x64_0_1 (broadcastInDim S1x64 ![1] bcast_S64_S1x64_1 (iotaInDim S64 32 0))

/-- A negative index counts from the end: `idx < 0 ? idx + 64 : idx`. -/
def wrapped (idx : IVec S4096x64 32) : IVec S4096x64 32 :=
  select (cmpi .slt idx (broadcastInDim S4096x64 ![] bcast_S_S4096x64 (constantI S_ 32 0#32)))
    (addi idx (broadcastInDim S4096x64 ![] bcast_S_S4096x64 (constantI S_ 32 64#32))) idx

/-- The wrapped index as a one-column array of start indices. -/
def startCol (idx : IVec S4096x64 32) : IVec S4096x64x1 32 :=
  broadcastInDim S4096x64x1 ![0, 1] bcast_S4096x64_S4096x64x1_0_1 (wrapped idx)

/-- The in-bounds mask: `0 ≤ start ≤ 63`, and-reduced over the one column. -/
def inBounds (idx : IVec S4096x64 32) : IVec S4096x64 1 :=
  Host.reduce IntOp.andi
    (andi (cmpi .sge (startCol idx) (broadcastInDim S4096x64x1 ![] bcast_S_S4096x64x1 (constantI S_ 32 0#32)))
      (cmpi .sle (startCol idx) (broadcastInDim S4096x64x1 ![0, 1, 2] bcast_S1x1x1_S4096x64x1_0_1_2
        (broadcastInDim S1x1x1 ![2] bcast_S1_S1x1x1_2 (constantI S1 32 63#32)))))
    (constantI S_ 1 1#1) reducesTo_S4096x64x1_S4096x64_d2 h_S_

/-- `jnp.take(table, idx, axis=0)`: the gathered rows where the index is in bounds, a NaN filler elsewhere. -/
def take (t : FVec F S64x128 .f32) (idx : IVec S4096x64 32) : FVec F S4096x64x128 .f32 :=
  select (broadcastInDim S4096x64x128 ![0, 1] bcast_S4096x64_S4096x64x128_0_1 (inBounds idx))
    (Host.gather gather_S64x128_S4096x64x1_S4096x64x128_2_0_n_n_0_2_1128 t (startCol idx))
    (broadcastInDim S4096x64x128 ![] bcast_S_S4096x64x128 (constant S_ .f32 0x7FC00000#32))

/-- The reference's result: `(patches · W + bias) + take(pos_table, positions)`. -/
def result (x : FVec F S4096x64x108 .f32) (w : FVec F S108x128 .f32) (b : FVec F S128 .f32) (t : FVec F S64x128 .f32) :
    FVec F S4096x64x128 .f32 :=
  addf
    (addf (Host.dotGeneral dot_S4096x64x108_S108x128_S4096x64x128_2_0_01_1_n_n none x w)
      (broadcastInDim S4096x64x128 ![0, 1, 2] bcast_S1x1x128_S4096x64x128_0_1_2 (broadcastInDim S1x1x128 ![2] bcast_S128_S1x1x128_2 b)))
    (take t positions)

end Cert.ReferenceIdeal.RefTerm

end
-- ==== Proof.RefRun.lean ====
/-
  The reference program's run, read back as one pure term.

  The program is a straight line of thirty-one tensor operations: the position grid (an iota over the
  64 patch positions, given a unit batch axis, then repeated over the 4096 batch entries); the row lookup
  `take(table, positions)`, whose body is inlined at its call — wrap a negative index by 64, make it a
  one-column array of start indices, test `0 ≤ start ≤ 63` and and-reduce the test over that column,
  gather the table's rows, keep a gathered row where the test holds and a NaN filler elsewhere; and
  around it the projection `patches · W` contracted over the 108 pixels, the bias repeated over batch
  and position, and the two sums.  The choice `index < 0 ? index + 64 : index` inside the lookup is itself
  a called function of one select, inlined in its place.

  Every operation writes a buffer of its own and reads buffers written before it, so what the result
  buffer holds at the end is the composition of the operations' functions applied to the four argument
  arrays as they were at launch, and the four arguments are never written.
-/
import proofs.«100341_g53068615909980_cont_9to1c4b_296_15_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirty-one operations in program order: the position grid (3), the row lookup inlined (23, the
    seventh of them the inlined one-select choice of the wrapped index), the projection, the bias
    repeated to the full shape, and the two sums (5). -/
abbrev ops : List (HloOp τ sig (Elt F)) :=
  [ -- positions[b, p] = p
    nullary main_v0 (iotaInDim S64 32 0),
    unary main_v0 main_v1 (broadcastInDim S1x64 ![1] bcast_S64_S1x64_1 : (⟨S64, .i32⟩ : BufTy).Contents (Elt F) → (⟨S1x64, .i32⟩ : BufTy).Contents (Elt F)),
    unary main_v1 main_v2 (broadcastInDim S4096x64 ![0, 1] bcast_S1x64_S4096x64_0_1 : (⟨S1x64, .i32⟩ : BufTy).Contents (Elt F) → (⟨S4096x64, .i32⟩ : BufTy).Contents (Elt F)),
    -- take(table, positions): index < 0
    TRef.nullary main_call0.c (constantI S_ 32 0#32),
    TRef.unary main_call0.c main_call0.v0 (broadcastInDim S4096x64 ![] bcast_S_S4096x64),
    TRef.binary (.of main_v2) main_call0.v0 main_call0.v1 (cmpi .slt),
    -- index + 64
    TRef.nullary main_call0.c_0 (constantI S_ 32 64#32),
    TRef.unary main_call0.c_0 main_call0.v2 (broadcastInDim S4096x64 ![] bcast_S_S4096x64),
    TRef.binary (.of main_v2) main_call0.v2 main_call0.v3 addi,
    -- the wrapped index: index < 0 ? index + 64 : index
    TRef.ternary main_call0.v1 main_call0.v3 (.of main_v2) main_call0.call0.v0 select,
    -- as a one-column array of start indices
    TRef.unary main_call0.call0.v0 main_call0.v5 (broadcastInDim S4096x64x1 ![0, 1] bcast_S4096x64_S4096x64x1_0_1),
    -- 0 ≤ start
    TRef.nullary main_call0.c_1 (constantI S1 32 63#32),
    TRef.nullary main_call0.c_2 (constantI S_ 32 0#32),
    TRef.unary main_call0.c_2 main_call0.v6 (broadcastInDim S4096x64x1 ![] bcast_S_S4096x64x1),
    TRef.binary main_call0.v5 main_call0.v6 main_call0.v7 (cmpi .sge),
    -- start ≤ 63
    TRef.unary main_call0.c_1 main_call0.v8 (broadcastInDim S1x1x1 ![2] bcast_S1_S1x1x1_2),
    TRef.unary main_call0.v8 main_call0.v9 (broadcastInDim S4096x64x1 ![0, 1, 2] bcast_S1x1x1_S4096x64x1_0_1_2),
    TRef.binary main_call0.v5 main_call0.v9 main_call0.v10 (cmpi .sle),
    -- both, and-reduced over the one column
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x64x1_S4096x64_d2 h_S_),
    -- the table's rows at the start indices
    TRef.binary (.of main_arg3) main_call0.v5 main_call0.v13 (fun x i => Host.gather gather_S64x128_S4096x64x1_S4096x64x128_2_0_n_n_0_2_1128 x i),
    -- the mask repeated over the 128 features, the NaN filler, the choice
    TRef.unary main_call0.v12 main_call0.v14 (broadcastInDim S4096x64x128 ![0, 1] bcast_S4096x64_S4096x64x128_0_1),
    TRef.nullary main_call0.cst (constant S_ .f32 0x7FC00000#32),
    TRef.unary main_call0.cst main_call0.v15 (broadcastInDim S4096x64x128 ![] bcast_S_S4096x64x128),
    TRef.ternary main_call0.v14 main_call0.v13 main_call0.v15 main_call0.v16 select,
    -- patches · W, contracted over the 108 pixels
    binary main_arg0 main_arg1 main_v4 ((fun l r => Host.dotGeneral dot_S4096x64x108_S108x128_S4096x64x128_2_0_01_1_n_n none l r) : (⟨S4096x64x108, .f32⟩ : BufTy).Contents (Elt F) → (⟨S108x128, .f32⟩ : BufTy).Contents (Elt F) → (⟨S4096x64x128, .f32⟩ : BufTy).Contents (Elt F)),
    -- the bias over batch and position
    unary main_arg2 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S4096x64x128 ![0, 1, 2] bcast_S1x1x128_S4096x64x128_0_1_2 : (⟨S1x1x128, .f32⟩ : BufTy).Contents (Elt F) → (⟨S4096x64x128, .f32⟩ : BufTy).Contents (Elt F)),
    -- (projection + bias) + taken rows
    binary main_v4 main_v6 main_v7 (addf : (⟨S4096x64x128, .f32⟩ : BufTy).Contents (Elt F) → (⟨S4096x64x128, .f32⟩ : BufTy).Contents (Elt F) → (⟨S4096x64x128, .f32⟩ : BufTy).Contents (Elt F)),
    binary main_v7 main_v3 main_v8 (addf : (⟨S4096x64x128, .f32⟩ : BufTy).Contents (Elt F) → (⟨S4096x64x128, .f32⟩ : BufTy).Contents (Elt F) → (⟨S4096x64x128, .f32⟩ : BufTy).Contents (Elt F)) ]

-- thirty-one binds re-associated, the two called bodies unfolded at their calls
set_option maxRecDepth 1024 in
/-- The program is that straight line: with the two called bodies substituted at their calls and
    sequencing re-associated to the right, the program and the list are the same chain of steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., unary_bufs_sub ..,
    nullary_bufs_sub .., unary_bufs_sub .., binary_bufs_sub ..,
    nullary_bufs_sub .., unary_bufs_sub .., binary_bufs_sub ..,
    ternary_bufs_sub ..,
    unary_bufs_sub ..,
    nullary_bufs_sub .., nullary_bufs_sub .., unary_bufs_sub .., binary_bufs_sub ..,
    unary_bufs_sub .., unary_bufs_sub .., binary_bufs_sub ..,
    binary_bufs_sub .., nullary_bufs_sub .., binary_bufs_sub ..,
    binary_bufs_sub ..,
    unary_bufs_sub .., nullary_bufs_sub .., unary_bufs_sub .., ternary_bufs_sub ..,
    binary_bufs_sub .., unary_bufs_sub .., unary_bufs_sub .., binary_bufs_sub .., binary_bufs_sub ..⟩

attribute [local irreducible] Host.reduce Host.gather in
-- the term is deep (the wrapped index occurs three times, the position grid three times in each)
set_option maxRecDepth 8192 in
/-- Starting from any contents `V`, the result buffer ends at the staged term of the four argument arrays.
    Reading backwards from the last sum, each buffer is replaced by the function of the one operation
    that writes it, until only the four arguments remain; a typed reference's two transports cancel
    (its buffer has exactly the type it carries).  The and-reduction and the row gather are compared as
    whole applications, argument by argument, never by their definitions. -/
theorem result_eq (V : Valuation τ sig (Elt F)) :
    after ops V (main_v8 : DevRef τ sig)
      = RefTerm.result (V (main_arg0 : DevRef τ sig)) (V (main_arg1 : DevRef τ sig)) (V (main_arg2 : DevRef τ sig))
          (V (main_arg3 : DevRef τ sig)) := by
  after_results_simp
  rfl

/-- No operation writes an argument: each of the four keeps its contents. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- The run: started from memory `m` with all counters zero, every weakly fair execution of the program
    ends, and in the final memory the result buffer is `RefTerm.result` of what the four argument
    buffers held in `m`, while those four buffers hold what they held in `m`. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = RefTerm.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.RefValue.lean ====
/-
  The reference's term IS the specification, index by index, over the extended reals.

  Every stage of the reference is read at ONE index `(bi, p, d)`: batch entry, patch position, feature.

  * The position grid is `positions[bi, p] = p` (an iota along the patch positions, broadcast over the batch).
  * No position is negative, so wrapping by 64 keeps it; as a one-column start index it is still `p`.
  * `0 ≤ p ≤ 63` holds for every `p < 64`, so the in-bounds mask, an "and" over the one column from the
    neutral bit `1`, is `1` everywhere.
  * The gather reads the table's row at the start index, read signed and clamped into `[0, 63]`: row `p`,
    column `d`.  The select on the mask keeps the gathered row, never the NaN filler.
  * The projection is the sum over the 108 pixels `Σ_k patches[bi, p, k] · W[k, d]`.
  * The bias broadcast over batch and position reads `bias[d]`.

  Together: `(Σ_k patches[bi,p,k] · W[k,d] + bias[d]) + pos[p,d]`, which is the specification's grouping
  `Σ + (pos + bias)` because addition of extended reals is commutative and associative.
-/
import proofs.«100341_g53068615909980_cont_9to1c4b_296_15_alg».proof.Proof.Spec
import proofs.«100341_g53068615909980_cont_9to1c4b_296_15_alg».proof.Proof.RefTerm
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.RefTerm Idealize.ShloMosaic Idealize.ShloMosaic.ValueIdx

/-! ## The position grid and the start indices -/

/-- `positions[bi, p] = p`: the inner broadcast reads the iota at `[0, p]`, the outer one at `[bi, p]`; the iota's
    value is its own coordinate. -/
theorem positions_apply (bi : Fin 4096) (p : Fin 64) : positions (ix2 bi p) = BitVec.ofNat 32 p.val := rfl

/-- A patch position, as a signed 32-bit word, is not negative (a fact about the 64 words `0 … 63`). -/
theorem slt_zero (p : Fin 64) : IntOp.cmpi .slt (BitVec.ofNat 32 p.val) 0#32 = 0#1 := by
  revert p; decide

/-- Wrapping keeps a position: the comparison `p < 0` is false, so the select takes the index itself. -/
theorem wrapped_positions_apply (bi : Fin 4096) (p : Fin 64) : wrapped positions (ix2 bi p) = BitVec.ofNat 32 p.val := by
  unfold wrapped
  rw [select_apply]
  have h : cmpi .slt positions (broadcastInDim S4096x64 ![] bcast_S_S4096x64 (constantI S_ 32 0#32)) (ix2 bi p) = 0#1 :=
    slt_zero p
  rw [h, select_zero]
  rfl

/-- The one-column start-index array reads the wrapped index of its batch entry and position, whatever the
    coordinate `c` on the unit axis. -/
theorem startCol_apply (idx : IVec S4096x64 32) (bi : Fin 4096) (p : Fin 64) (c : Fin 1) :
    startCol idx (ix3 bi p c) = wrapped idx (ix2 bi p) := by
  unfold startCol
  exact broadcastInDim_apply _ _ _ (ix3 bi p c) (ix2 bi p) (fun a => match a with | ⟨0, _⟩ => rfl | ⟨1, _⟩ => rfl)

/-! ## The in-bounds mask -/

/-- Dropping the unit column of `[4096, 64, 1]` leaves `[4096, 64]`. -/
theorem reduces_col : S4096x64x1.Reduces [2] S4096x64 := by decide

/-- The index over `[bi, p]` with `k` on the dropped column is `[bi, p, k]`. -/
theorem lift_col (bi : Fin 4096) (p : Fin 64) (k : Fin 1) :
    reduces_col.lift (ix2 bi p) k = ix3 bi p k := by
  funext c
  refine Fin.ext ?_
  match c with
  | ⟨0, _⟩ => rfl
  | ⟨1, _⟩ => rfl
  | ⟨2, _⟩ => rfl

/-- A fold over a one-element axis combines that one element with the initial value. -/
theorem fold_one (f : Fin 1 → BitVec 1) (b : BitVec 1) :
    (Finset.univ : Finset (Fin 1)).fold IntOp.andi b f = IntOp.andi (f 0) b := by
  rw [Finset.univ_unique, Finset.fold_singleton]; rfl

/-- `0 ≤ p` and `p ≤ 63` as signed 32-bit words, "and"-ed with the neutral bit: `1` for each of the 64 positions. -/
theorem in_range (p : Fin 64) :
    IntOp.andi (IntOp.andi (IntOp.cmpi .sge (BitVec.ofNat 32 p.val) 0#32) (IntOp.cmpi .sle (BitVec.ofNat 32 p.val) 63#32)) 1#1 = 1#1 := by
  revert p; decide

/-- The mask is `1` everywhere: the reduction over the one column is the fold over its single coordinate, whose
    element is the two comparisons of the start index `p`. -/
theorem inBounds_positions_apply (bi : Fin 4096) (p : Fin 64) : inBounds positions (ix2 bi p) = 1#1 := by
  unfold inBounds
  rw [Host.reduce_eq_fold_single IntOp.andi _ _ reducesTo_S4096x64x1_S4096x64_d2 reduces_col h_S_ (ix2 bi p)]
  refine (fold_one _ _).trans ?_
  show IntOp.andi (IntOp.andi (IntOp.cmpi .sge (startCol positions (reduces_col.lift (ix2 bi p) (0 : Fin 1))) 0#32)
      (IntOp.cmpi .sle (startCol positions (reduces_col.lift (ix2 bi p) (0 : Fin 1))) 63#32)) 1#1 = 1#1
  rw [lift_col, startCol_apply, wrapped_positions_apply]
  exact in_range p

/-! ## The row gather -/

section Gather
variable {α : Type}

/-- The row gather's dimension numbers: operand `[64, 128]`, start indices `[4096, 64, 1]` whose last axis holds
    the one-component start index (it names operand axis 0, which is collapsed), slices `[1, 128]`, the result's
    axis 2 running along the slice. -/
abbrev rowGather : GatherDims S64x128 S4096x64x1 S4096x64x128 := gather_S64x128_S4096x64x1_S4096x64x128_2_0_n_n_0_2_1128

/-- The gather read at `[bi, p, d]`: on operand axis 0 the start index `idx[bi, p, 0]`, read signed and clamped into
    `[0, 64 − 1]` (no batching and no offset there: the axis is collapsed); on operand axis 1 no start and no
    batching, the offset `d`. -/
theorem gather_apply (t : S64x128.Idx → α) (idx : IVec S4096x64x1 32) (bi : Fin 4096) (p : Fin 64) (d : Fin 128) :
    Host.gather rowGather t idx (ix3 bi p d)
      = t (ix2 (⟨min (idx (ix3 bi p 0)).toInt.toNat 63, by omega⟩ : Fin 64) d) := by
  unfold Host.gather
  congr 1
  funext a
  refine Fin.ext ?_
  match a with
  | ⟨0, _⟩ =>
    show rowGather.start (ix3 bi p d) idx 0 + rowGather.batchCoord (ix3 bi p d) 0 + rowGather.offCoord (ix3 bi p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx (ix3 bi p d) ⟨List.idxOf (0 : Fin 2) rowGather.startIndexMap,
        List.idxOf_lt_length_iff.2 (List.mem_singleton.mpr rfl)⟩ = ix3 bi p 0 := by
      funext b; refine Fin.ext ?_
      match b with
      | ⟨0, _⟩ => rfl
      | ⟨1, _⟩ => rfl
      | ⟨2, _⟩ => rfl
    rw [hsi]
    rfl
  | ⟨1, _⟩ =>
    show rowGather.start (ix3 bi p d) idx 1 + rowGather.batchCoord (ix3 bi p d) 1 + rowGather.offCoord (ix3 bi p d) 1 = d.val
    rw [GatherDims.batchCoord_eq_zero _ _ _ List.not_mem_nil]
    have hst : rowGather.start (ix3 bi p d) idx 1 = 0 := by
      unfold GatherDims.start
      rw [dif_neg (show (1 : Fin 2) ∉ rowGather.startIndexMap by decide)]
    rw [hst]
    simp only [Nat.add_zero, Nat.zero_add]
    rfl

/-- A patch position read as a signed integer and clamped into `[0, 63]` is itself. -/
theorem clamp_row (p : Fin 64) : min (BitVec.ofNat 32 p.val).toInt.toNat 63 = p.val := by
  revert p; decide

/-- At the position grid's start indices the gather reads the table's row `p`. -/
theorem gather_startCol_apply (t : S64x128.Idx → α) (bi : Fin 4096) (p : Fin 64) (d : Fin 128) :
    Host.gather rowGather t (startCol positions) (ix3 bi p d) = t (ix2 p d) := by
  rw [gather_apply]
  refine congrArg (fun q => t (ix2 q d)) (Fin.ext ?_)
  show min (startCol positions (ix3 bi p 0)).toInt.toNat 63 = p.val
  rw [startCol_apply, wrapped_positions_apply]
  exact clamp_row p

end Gather

/-- `take(table, positions)[bi, p, d] = table[p, d]`: the mask's broadcast reads `1`, so the select keeps the
    gathered row. -/
theorem take_positions_apply (t : FVec Ideal S64x128 .f32) (bi : Fin 4096) (p : Fin 64) (d : Fin 128) :
    take t positions (ix3 bi p d) = t (ix2 p d) := by
  unfold take
  rw [select_apply]
  have hm : broadcastInDim S4096x64x128 ![0, 1] bcast_S4096x64_S4096x64x128_0_1 (inBounds positions) (ix3 bi p d) = 1#1 :=
    (broadcastInDim_apply _ _ _ (ix3 bi p d) (ix2 bi p) (fun a => match a with | ⟨0, _⟩ => rfl | ⟨1, _⟩ => rfl)).trans
      (inBounds_positions_apply bi p)
  rw [hm, select_one]
  exact gather_startCol_apply t bi p d

/-! ## The projection and the bias -/

/-- The projection's dimension numbers: contract the pixels (axis 2 of the patches, axis 0 of the weights). -/
abbrev pixelDot : DotDims S4096x64x108 S108x128 S4096x64x128 := dot_S4096x64x108_S108x128_S4096x64x128_2_0_01_1_n_n

/-- The projection read at an index: the sum over the 108 pixels.  The one-axis contraction index is its one
    coordinate `k`; the left operand is read at `[bi, p, k]`, the right one at `[k, d]`. -/
theorem dot_apply (x : FVec Ideal S4096x64x108 .f32) (w : FVec Ideal S108x128 .f32) (bi : Fin 4096) (p : Fin 64) (d : Fin 128) :
    Host.dotGeneral pixelDot none x w (ix3 bi p d) = ∑ k : Fin 108, x (ix3 bi p k) * w (ix2 k d) := by
  show FloatOps.dotGeneral pixelDot none _ x w (ix3 bi p d) = _
  rw [Ideal.dotGeneral_apply, ← Equiv.sum_comp (contrEquiv1 pixelDot 108 rfl rfl).symm]
  refine Finset.sum_congr rfl fun c _ => ?_
  have c3 := contrEquiv1_symm_val pixelDot 108 rfl rfl c
  have l3 : pixelDot.lhsIdx (ix3 bi p d) ((contrEquiv1 pixelDot 108 rfl rfl).symm c) = ix3 bi p c := by
    funext ax; apply Fin.ext
    match ax with
    | ⟨0, _⟩ => rfl
    | ⟨1, _⟩ => rfl
    | ⟨2, _⟩ => exact (pixelDot.lhsIdx_val_of_single (cl := 2) rfl _ _).trans c3
  have r3 : pixelDot.rhsIdx (ix3 bi p d) ((contrEquiv1 pixelDot 108 rfl rfl).symm c) = ix2 c d := by
    funext ax; apply Fin.ext
    match ax with
    | ⟨0, _⟩ => exact (pixelDot.rhsIdx_val_of_single (cr := 0) rfl _ _).trans c3
    | ⟨1, _⟩ => rfl
  rw [l3, r3]

/-- The bias broadcast over batch and position reads `bias[d]`: the outer broadcast reads `[0, 0, d]` of the
    `[1, 1, 128]` array, the inner one `[d]` of the bias. -/
theorem bias_apply (b : FVec Ideal S128 .f32) (bi : Fin 4096) (p : Fin 64) (d : Fin 128) :
    broadcastInDim S4096x64x128 ![0, 1, 2] bcast_S1x1x128_S4096x64x128_0_1_2 (broadcastInDim S1x1x128 ![2] bcast_S128_S1x1x128_2 b) (ix3 bi p d)
      = b (ix1 d) := by
  refine (broadcastInDim_apply _ _ _ (ix3 bi p d) (ix3 (0 : Fin 1) (0 : Fin 1) d)
    (fun a => match a with | ⟨0, _⟩ => rfl | ⟨1, _⟩ => rfl | ⟨2, _⟩ => rfl)).trans ?_
  exact broadcastInDim_apply _ _ _ (ix3 (0 : Fin 1) (0 : Fin 1) d) (ix1 d) (fun a => match a with | ⟨0, _⟩ => rfl)

/-! ## The reference's result is the specification -/

/-- `(Σ_k patches[bi,p,k] · W[k,d] + bias[d]) + pos[p,d] = Σ_k … + (pos[p,d] + bias[d])` at every index. -/
theorem result_eq (x : FVec Ideal S4096x64x108 .f32) (w : FVec Ideal S108x128 .f32) (b : FVec Ideal S128 .f32)
    (t : FVec Ideal S64x128 .f32) :
    RefTerm.result (F := Ideal) x w b t = Cert.Embed.out x w b t := by
  funext i
  obtain ⟨bi, p, d, rfl⟩ : ∃ (bi : Fin 4096) (p : Fin 64) (d : Fin 128), i = ix3 bi p d := ⟨i 0, i 1, i 2, eq_ix3 i⟩
  unfold RefTerm.result
  rw [addf_apply, addf_apply, dot_apply, bias_apply, take_positions_apply, Cert.Embed.out_ix3]
  unfold Cert.Embed.outAt
  exact Cert.Embed.regroup _ _ _

end Cert.ReferenceIdeal.RefValue

end
-- ==== Proof.lean ====
/-
  A patch encoder: every 108-pixel patch is projected onto 128 features and receives its feature's bias and its
  position's learned row,

      out[b, p, d] = Σ_k patches[b, p, k] · W[k, d] + bias[d] + pos[p, d].

  The kernel flattens the 4096 × 64 patches to 262144 rows, adds the bias to every row of the positional table once
  on the host, and streams the rows through a 16-point grid: each point multiplies its 16384 rows by the weights and
  adds the fused table row `row mod 64`; the result is reshaped back to [4096, 64, 128].  The reference projects the
  patches with one contraction, adds the broadcast bias, and adds the positional rows taken from the table at the
  positions 0 … 63 (an index that is never negative and never out of range, so the lookup is the row itself).

  Over the extended reals both are the one function `Cert.Embed.out` of the four arguments: the contraction is the
  same finite sum on both sides, and the kernel's `s + (pos + bias)` is the reference's `(s + bias) + pos` because
  addition of extended reals is commutative and associative — no finiteness of the inputs is used.

  The three frames are the programs' runs with the result dropped; the idealization rewrote nothing, so `preserves`
  has no conjunct.
-/
import proofs.«100341_g53068615909980_cont_9to1c4b_296_15_alg».proof.Defs
import proofs.«100341_g53068615909980_cont_9to1c4b_296_15_alg».proof.Proof.Gen.Kernel
import proofs.«100341_g53068615909980_cont_9to1c4b_296_15_alg».proof.Proof.Gen.Kernel.Frame
import proofs.«100341_g53068615909980_cont_9to1c4b_296_15_alg».proof.Proof.Gen.KernelIdeal
import proofs.«100341_g53068615909980_cont_9to1c4b_296_15_alg».proof.Proof.Gen.KernelIdeal.Frame
import proofs.«100341_g53068615909980_cont_9to1c4b_296_15_alg».proof.Proof.Gen.ReferenceIdeal
import proofs.«100341_g53068615909980_cont_9to1c4b_296_15_alg».proof.Proof.Gen.Pre_finite_inputs
import proofs.«100341_g53068615909980_cont_9to1c4b_296_15_alg».proof.Proof.Spec
import proofs.«100341_g53068615909980_cont_9to1c4b_296_15_alg».proof.Proof.KernelRun
import proofs.«100341_g53068615909980_cont_9to1c4b_296_15_alg».proof.Proof.RefRun
import proofs.«100341_g53068615909980_cont_9to1c4b_296_15_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization is the kernel's own text read over the extended reals: nothing was rewritten. -/
theorem preserves : Cert.preserves_Kernel_KernelIdeal := trivial

/-- Both idealized programs end with the embedding `Cert.Embed.out` of their (agreeing) arguments. -/
theorem algebraic : Cert.algebraic_KernelIdeal_ReferenceIdeal := by
  intro m ρ m' ρ' _ hagree
  refine ⟨_, Cert.KernelIdeal.PatchValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
